-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.K.Conds.lean ====
/-
  The grid of the matrix product is (2, 4, 8): row block i, column block j, and the position k of a
  512-wide slab of the contracted axis, k running fastest. Point t of the 64 has k = t mod 8. The body
  branches three times on k: at k = 0 it stores the slab's product into the output block, at k > 0 it
  adds the slab's product to what the block holds, and at k = 7 it then adds the bias row. Here the
  three conditions are decided over the 64 points in closed form, and the output block is shown to be
  stored into at every point (one of the first two conditions always holds).
-/
import proofs.«109747_j32555852104252_2_alg».proof.Proof.Gen.Kernel.Frame
import proofs.«109747_j32555852104252_2_alg».proof.Proof.Gen.Kernel.Skeleton

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (the slab's product is stored) is taken exactly at the points with k = 0. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second branch (the slab's product is added) is taken exactly at the points with k > 0. -/
theorem later_iff : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)

/-- The third branch (the bias row is added) is taken exactly at the points with k = 7. -/
theorem last_iff : ∀ t : Fin cfg0.N, k0_cond3 (grid0.coords t) = 1#1 ↔ t.val % 8 = 7 :=
  (by decide +kernel : ∀ t : Fin grid0.N, k0_cond3 (grid0.coords t) = 1#1 ↔ t.val % 8 = 7)

/-- At every grid coordinate the body stores into the output block: k = 0 or k > 0. -/
theorem out_live : ∀ i : grid0.Coords, cfg0.idle 3 i = false := by decide +kernel

/-- The output block is never cut short: the blocks tile the array. -/
theorem out_unclipped : ∀ (i : cfg0.grid.Coords) a, (cfg0.win 3).clip i a = none := fun _ _ => rfl

/-- Each window's current staging memref at point `t`, and that it is a whole buffer. -/
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .f32 := win0_3.stage (cfg0.slots t 3)
abbrev hs3 (t : Fin cfg0.N) : (ms3 t).IsWhole := hstage0_3 ((cfg0.slots t 3).cast nbuf0_3)

end Cert.Kernel.Acc

end
-- ==== Proof.K.Runs.lean ====
/-
  The body of the matrix product at one grid point, run on whole staging buffers, in each of the three
  cases the 64 points fall into. With x the 2048×512 slab of the left matrix, w the 1024×512 slab of the
  right one, b the 1×1024 piece of the bias row and acc what the 2048×1024 output block holds:
    first  (k = 0):      the block ends at the slab's product   x·wᵀ;
    middle (0 < k < 7):  the block ends at                      acc + x·wᵀ;
    last   (k = 7):      the block ends at                      (acc + x·wᵀ) + b, b added to every row.
  The input buffers are only read. Each case is the same program; the case's three hypotheses decide its
  three branches.
-/
import proofs.«109747_j32555852104252_2_alg».proof.Proof.K.Conds
import Idealize.ShloMosaic.Lib.Pipeline.Value

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a whole-block load or store. -/
theorem zero_offsets : (![0, 0] : Fin 2 → Nat) = fun _ => 0 := funext fun a => by fin_cases a <;> rfl

/-- A buffer read back after a list of stores whose last one wrote the whole block holds that store's value,
    whatever it held before and whatever the earlier stores were. -/
theorem read_after_whole_store {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h inb]

set_option maxHeartbeats 1000000 in
/-- The first case (k = 0): the output block, whatever it held, ends at the slab's product. -/
theorem run_first (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : k0_cond1 i = 1#1) (hc2 : ¬k0_cond2 i = 1#1) (hc3 : ¬k0_cond3 i = 1#1)
    (x : Vec F S2048x512 .f32) (w : Vec F S1024x512 .f32) (b : Vec F S1x1024 .f32) (E : Set ℕ) (K : PUnit → sProp 𝕄) :
    iprop(owns (c : Thread nD τ) a3 fullShare x ∗ owns (c : Thread nD τ) a4 fullShare w ∗ owns (c : Thread nD τ) a5 fullShare b
        ∗ (∃ d, owns (c : Thread nD τ) a6 fullShare d)
        ∗ (iprop(owns (c : Thread nD τ) a3 fullShare x ∗ owns (c : Thread nD τ) a4 fullShare w ∗ owns (c : Thread nD τ) a5 fullShare b
            ∗ owns (c : Thread nD τ) a6 fullShare (k0_pay1 x w)) -∗ K ⟨⟩))
      ⊢ wp frame (wpE (defs₀ (F := F)) Variants.none c none) E (cc0__matmul_bias_kernel i a3 h3 a4 h4 a5 h5 a6 h6) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%d6, %f6, -, H6⟩, Hk⟩
  obtain rfl := h3.eq_unread hf3; obtain rfl := h4.eq_unread hf4; obtain rfl := h5.eq_unread hf5
  sl_exec (disch := first | exact hc1 | exact hc2 | exact hc3)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  rw [read_after_whole_store _ _ zero_offsets]
  simp only [View.readAt_eq_ld, h3.read_unread, h4.read_unread, h5.read_unread, View.ld_unit_zero (S := S2048x512) zero_offsets,
    View.ld_unit_zero (S := S1024x512) zero_offsets, View.ld_unit_zero (S := S1x1024) zero_offsets, View.ld_unit_zero (S := S2048x1024) zero_offsets]

set_option maxHeartbeats 1000000 in
/-- A middle case (0 < k < 7): the output block, holding `acc`, ends at `acc` plus the slab's product. -/
theorem run_middle (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : ¬k0_cond3 i = 1#1)
    (x : Vec F S2048x512 .f32) (w : Vec F S1024x512 .f32) (b : Vec F S1x1024 .f32) (acc : Vec F S2048x1024 .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare acc
        ∗ (iprop(owns (c : Thread nD τ) a3 fullShare x ∗ owns (c : Thread nD τ) a4 fullShare w ∗ owns (c : Thread nD τ) a5 fullShare b
            ∗ owns (c : Thread nD τ) a6 fullShare (k0_pay2 x w acc)) -∗ K ⟨⟩))
      ⊢ wp frame (wpE (defs₀ (F := F)) Variants.none c none) E (cc0__matmul_bias_kernel i a3 h3 a4 h4 a5 h5 a6 h6) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%f6, %hf6, H6⟩, Hk⟩
  obtain rfl := h3.eq_unread hf3; obtain rfl := h4.eq_unread hf4; obtain rfl := h5.eq_unread hf5; obtain rfl := h6.eq_unread hf6
  sl_exec (disch := first | exact hc1 | exact hc2 | exact hc3)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  rw [read_after_whole_store _ _ zero_offsets]
  simp only [View.readAt_eq_ld, h3.read_unread, h4.read_unread, h5.read_unread, h6.read_unread, View.ld_unit_zero (S := S2048x512) zero_offsets,
    View.ld_unit_zero (S := S1024x512) zero_offsets, View.ld_unit_zero (S := S1x1024) zero_offsets, View.ld_unit_zero (S := S2048x1024) zero_offsets]

set_option maxHeartbeats 1000000 in
/-- The last case (k = 7): the output block, holding `acc`, ends at `acc` plus the slab's product plus the bias row. -/
theorem run_last (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : k0_cond3 i = 1#1)
    (x : Vec F S2048x512 .f32) (w : Vec F S1024x512 .f32) (b : Vec F S1x1024 .f32) (acc : Vec F S2048x1024 .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare acc
        ∗ (iprop(owns (c : Thread nD τ) a3 fullShare x ∗ owns (c : Thread nD τ) a4 fullShare w ∗ owns (c : Thread nD τ) a5 fullShare b
            ∗ owns (c : Thread nD τ) a6 fullShare (k0_pay3 (k0_pay2 x w acc) b)) -∗ K ⟨⟩))
      ⊢ wp frame (wpE (defs₀ (F := F)) Variants.none c none) E (cc0__matmul_bias_kernel i a3 h3 a4 h4 a5 h5 a6 h6) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%f6, %hf6, H6⟩, Hk⟩
  obtain rfl := h3.eq_unread hf3; obtain rfl := h4.eq_unread hf4; obtain rfl := h5.eq_unread hf5; obtain rfl := h6.eq_unread hf6
  sl_exec (disch := first | exact hc1 | exact hc2 | exact hc3)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  rw [read_after_whole_store _ _ zero_offsets]
  sl_unfold_words
  rw [View.readCov_unit_zero (S := S2048x1024) a6.view zero_offsets inb_S2048x1024_S2048x1024_0_0]
  simp only [View.readAt_eq_ld, h3.read_unread, h4.read_unread, h5.read_unread, h6.read_unread, View.ld_unit_zero (S := S2048x512) zero_offsets,
    View.ld_unit_zero (S := S1024x512) zero_offsets, View.ld_unit_zero (S := S1x1024) zero_offsets, View.ld_unit_zero (S := S2048x1024) zero_offsets]

end Cert.Kernel.Acc

end
-- ==== Proof.K.Data.lean ====
/-
  What the staging buffers hold from point to point. The three inputs' buffers hold their blocks and the
  body leaves them so. The output block is an accumulator over each run of eight points (one row block i,
  one column block j, k = 0 … 7): after the point with k = 0 it holds the first slab's product; after a
  later point, what it held plus that point's slab product; after the point with k = 7, that plus the
  bias row. It is written back to the array only after k = 7, so between the points of a run the body
  finds in it what it left at the point before.
-/
import proofs.«109747_j32555852104252_2_alg».proof.Proof.K.Conds

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block after the body at position `n` of the grid, by recursion on the position. -/
def acc (c : Dev nD) : (n : ℕ) → n < cfg0.N → Vec F S2048x1024 .f32
  | 0, hn => k0_pay1 (iblk m c 0 ⟨0, hn⟩) (iblk m c 1 ⟨0, hn⟩)
  | n + 1, hn =>
    if (n + 1) % 8 = 0 then k0_pay1 (iblk m c 0 ⟨n + 1, hn⟩) (iblk m c 1 ⟨n + 1, hn⟩)
    else if (n + 1) % 8 = 7 then
      k0_pay3 (k0_pay2 (iblk m c 0 ⟨n + 1, hn⟩) (iblk m c 1 ⟨n + 1, hn⟩) (acc c n (Nat.lt_of_succ_lt hn))) (iblk m c 2 ⟨n + 1, hn⟩)
    else k0_pay2 (iblk m c 0 ⟨n + 1, hn⟩) (iblk m c 1 ⟨n + 1, hn⟩) (acc c n (Nat.lt_of_succ_lt hn))

/-- At a point with k = 0 the block is the slab's product. -/
theorem acc_first (c : Dev nD) (t : Fin cfg0.N) (h0 : t.val % 8 = 0) :
    acc m c t.val t.isLt = k0_pay1 (iblk m c 0 t) (iblk m c 1 t) := by
  obtain ⟨n, hn⟩ := t
  cases n with
  | zero => rfl
  | succ n => exact (if_pos h0).trans rfl

/-- At a point with 0 < k < 7 it is what the point before left plus the slab's product. -/
theorem acc_middle (c : Dev nD) (t : Fin cfg0.N) (h0 : t.val % 8 ≠ 0) (h7 : t.val % 8 ≠ 7) :
    acc m c t.val t.isLt = k0_pay2 (iblk m c 0 t) (iblk m c 1 t) (acc m c (t.val - 1) (Nat.lt_of_le_of_lt (Nat.sub_le _ _) t.isLt)) := by
  obtain ⟨n, hn⟩ := t
  cases n with
  | zero => exact absurd (Nat.zero_mod _) h0
  | succ n => exact (if_neg h0).trans ((if_neg h7).trans rfl)

/-- At a point with k = 7 the bias row is added on top of that. -/
theorem acc_last (c : Dev nD) (t : Fin cfg0.N) (h7 : t.val % 8 = 7) :
    acc m c t.val t.isLt = k0_pay3 (k0_pay2 (iblk m c 0 t) (iblk m c 1 t) (acc m c (t.val - 1) (Nat.lt_of_le_of_lt (Nat.sub_le _ _) t.isLt))) (iblk m c 2 t) := by
  obtain ⟨n, hn⟩ := t
  cases n with
  | zero => exfalso; dsimp only at h7; omega
  | succ n => exact (if_neg (by dsimp only at h7; omega)).trans ((if_pos h7).trans rfl)

/-- The proof data of the one pipeline on core `c`: the arrays as the region finds them; after the body each input's
    buffer at its block and the output's at the accumulator; nothing else carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = acc m c t.val t.isLt := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- At a point with k > 0 the output's buffer holds what the body left at the point before: the point is not the
    first, and the buffer is written back only after a point with k = 7, which the point before is not. -/
theorem before_3 (c : Dev nD) (t : Fin cfg0.N) (h0 : t.val % 8 ≠ 0) (d) :
    (dats m 0 c).before 3 t d = acc m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    out_live out_unclipped]
  dsimp only [dats]

end Cert.Kernel.Acc

end
-- ==== Proof.K.Body.lean ====
/-
  The body obligation of the matrix product's pipeline and its run. At a point t the three inputs' buffers hold
  their blocks; t mod 8 says which of the three cases the point is in, and in the two later cases the output's
  buffer holds what the point before left; the case's run then leaves the output's buffer at the accumulator's
  value at t. From the obligation the library's launch theorem gives the run of the whole program: it
  terminates without fault, every windowed array ends as the proof data say (the inputs unchanged, the
  output overwritten block by block at the write-backs), and the bias vector, which no window stages, is
  untouched.
-/
import proofs.«109747_j32555852104252_2_alg».proof.Proof.K.Runs
import proofs.«109747_j32555852104252_2_alg».proof.Proof.K.Data

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point, by the three cases of t mod 8. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 64 := lt_of_lt_of_eq t.isLt (show cfg0.N = 64 from N_0)
  by_cases h0 : t.val % 8 = 0
  · rw [acc_first m c t h0]
    iintro ⟨HΦ, Ho, ⟨%d0, H0⟩, ⟨%d1, H1⟩, ⟨%d2, H2⟩, ⟨%d3, H3⟩⟩
    iapply (run_first c (grid0.coords t) _ _ _ _ _ _ _ _ ((first_iff t).mpr h0) (fun h => (later_iff t).mp h h0)
      (fun h => by have := (last_iff t).mp h; omega) (iblk m c 0 t) (iblk m c 1 t) (iblk m c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before_3 m c t h0]
    by_cases h7 : t.val % 8 = 7
    · rw [acc_last m c t h7]
      iintro ⟨HΦ, Ho, ⟨%d0, H0⟩, ⟨%d1, H1⟩, ⟨%d2, H2⟩, ⟨%d3, H3⟩⟩
      iapply (run_last c (grid0.coords t) _ _ _ _ _ _ _ _ (fun h => h0 ((first_iff t).mp h)) ((later_iff t).mpr h0)
        ((last_iff t).mpr h7) (iblk m c 0 t) (iblk m c 1 t) (iblk m c 2 t) _ Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [acc_middle m c t h0 h7]
      iintro ⟨HΦ, Ho, ⟨%d0, H0⟩, ⟨%d1, H1⟩, ⟨%d2, H2⟩, ⟨%d3, H3⟩⟩
      iapply (run_middle c (grid0.coords t) _ _ _ _ _ _ _ _ (fun h => h0 ((first_iff t).mp h)) ((later_iff t).mpr h0)
        (fun h => h7 ((last_iff t).mp h)) (iblk m c 0 t) (iblk m c 1 t) (iblk m c 2 t) _ Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  dsimp only
  rw [show idle0 3 (grid0.coords t) = false from out_live (grid0.coords t)]
  exact sound_body m c t

set_option maxHeartbeats 2000000 in
set_option backward.isDefEq.respectTransparency.types false in
/-- The run: from any memory with zero counters every weakly fair execution of the program terminates without
    fault, with every windowed array at what the proof data give and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Acc

end
-- ==== Proof.KI.Conds.lean ====
/-
  The grid of the matrix product is (2, 4, 8): row block i, column block j, and the position k of a
  512-wide slab of the contracted axis, k running fastest. Point t of the 64 has k = t mod 8. The body
  branches three times on k: at k = 0 it stores the slab's product into the output block, at k > 0 it
  adds the slab's product to what the block holds, and at k = 7 it then adds the bias row. Here the
  three conditions are decided over the 64 points in closed form, and the output block is shown to be
  stored into at every point (one of the first two conditions always holds).
-/
import proofs.«109747_j32555852104252_2_alg».proof.Proof.Gen.KernelIdeal.Frame
import proofs.«109747_j32555852104252_2_alg».proof.Proof.Gen.KernelIdeal.Skeleton

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (the slab's product is stored) is taken exactly at the points with k = 0. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second branch (the slab's product is added) is taken exactly at the points with k > 0. -/
theorem later_iff : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)

/-- The third branch (the bias row is added) is taken exactly at the points with k = 7. -/
theorem last_iff : ∀ t : Fin cfg0.N, k0_cond3 (grid0.coords t) = 1#1 ↔ t.val % 8 = 7 :=
  (by decide +kernel : ∀ t : Fin grid0.N, k0_cond3 (grid0.coords t) = 1#1 ↔ t.val % 8 = 7)

/-- At every grid coordinate the body stores into the output block: k = 0 or k > 0. -/
theorem out_live : ∀ i : grid0.Coords, cfg0.idle 3 i = false := by decide +kernel

/-- The output block is never cut short: the blocks tile the array. -/
theorem out_unclipped : ∀ (i : cfg0.grid.Coords) a, (cfg0.win 3).clip i a = none := fun _ _ => rfl

/-- Each window's current staging memref at point `t`, and that it is a whole buffer. -/
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .f32 := win0_3.stage (cfg0.slots t 3)
abbrev hs3 (t : Fin cfg0.N) : (ms3 t).IsWhole := hstage0_3 ((cfg0.slots t 3).cast nbuf0_3)

end Cert.KernelIdeal.Acc

end
-- ==== Proof.KI.Runs.lean ====
/-
  The body of the matrix product at one grid point, run on whole staging buffers, in each of the three
  cases the 64 points fall into. With x the 2048×512 slab of the left matrix, w the 1024×512 slab of the
  right one, b the 1×1024 piece of the bias row and acc what the 2048×1024 output block holds:
    first  (k = 0):      the block ends at the slab's product   x·wᵀ;
    middle (0 < k < 7):  the block ends at                      acc + x·wᵀ;
    last   (k = 7):      the block ends at                      (acc + x·wᵀ) + b, b added to every row.
  The input buffers are only read. Each case is the same program; the case's three hypotheses decide its
  three branches.
-/
import proofs.«109747_j32555852104252_2_alg».proof.Proof.KI.Conds
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The all-zero offsets of a whole-block load or store. -/
theorem zero_offsets : (![0, 0] : Fin 2 → Nat) = fun _ => 0 := funext fun a => by fin_cases a <;> rfl

/-- A buffer read back after a list of stores whose last one wrote the whole block holds that store's value,
    whatever it held before and whatever the earlier stores were. -/
theorem read_after_whole_store {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h inb]

set_option maxHeartbeats 1000000 in
/-- The first case (k = 0): the output block, whatever it held, ends at the slab's product. -/
theorem run_first (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : k0_cond1 i = 1#1) (hc2 : ¬k0_cond2 i = 1#1) (hc3 : ¬k0_cond3 i = 1#1)
    (x : Vec F S2048x512 .f32) (w : Vec F S1024x512 .f32) (b : Vec F S1x1024 .f32) (E : Set ℕ) (K : PUnit → sProp 𝕄) :
    iprop(owns (c : Thread nD τ) a3 fullShare x ∗ owns (c : Thread nD τ) a4 fullShare w ∗ owns (c : Thread nD τ) a5 fullShare b
        ∗ (∃ d, owns (c : Thread nD τ) a6 fullShare d)
        ∗ (iprop(owns (c : Thread nD τ) a3 fullShare x ∗ owns (c : Thread nD τ) a4 fullShare w ∗ owns (c : Thread nD τ) a5 fullShare b
            ∗ owns (c : Thread nD τ) a6 fullShare (k0_pay1 x w)) -∗ K ⟨⟩))
      ⊢ wp frame (wpE (defs₀ (F := F)) Variants.none c none) E (cc0__matmul_bias_kernel i a3 h3 a4 h4 a5 h5 a6 h6) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%d6, %f6, -, H6⟩, Hk⟩
  obtain rfl := h3.eq_unread hf3; obtain rfl := h4.eq_unread hf4; obtain rfl := h5.eq_unread hf5
  sl_exec (disch := first | exact hc1 | exact hc2 | exact hc3)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  rw [read_after_whole_store _ _ zero_offsets]
  simp only [View.readAt_eq_ld, h3.read_unread, h4.read_unread, h5.read_unread, View.ld_unit_zero (S := S2048x512) zero_offsets,
    View.ld_unit_zero (S := S1024x512) zero_offsets, View.ld_unit_zero (S := S1x1024) zero_offsets, View.ld_unit_zero (S := S2048x1024) zero_offsets]

set_option maxHeartbeats 1000000 in
/-- A middle case (0 < k < 7): the output block, holding `acc`, ends at `acc` plus the slab's product. -/
theorem run_middle (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : ¬k0_cond3 i = 1#1)
    (x : Vec F S2048x512 .f32) (w : Vec F S1024x512 .f32) (b : Vec F S1x1024 .f32) (acc : Vec F S2048x1024 .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare acc
        ∗ (iprop(owns (c : Thread nD τ) a3 fullShare x ∗ owns (c : Thread nD τ) a4 fullShare w ∗ owns (c : Thread nD τ) a5 fullShare b
            ∗ owns (c : Thread nD τ) a6 fullShare (k0_pay2 x w acc)) -∗ K ⟨⟩))
      ⊢ wp frame (wpE (defs₀ (F := F)) Variants.none c none) E (cc0__matmul_bias_kernel i a3 h3 a4 h4 a5 h5 a6 h6) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%f6, %hf6, H6⟩, Hk⟩
  obtain rfl := h3.eq_unread hf3; obtain rfl := h4.eq_unread hf4; obtain rfl := h5.eq_unread hf5; obtain rfl := h6.eq_unread hf6
  sl_exec (disch := first | exact hc1 | exact hc2 | exact hc3)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  rw [read_after_whole_store _ _ zero_offsets]
  simp only [View.readAt_eq_ld, h3.read_unread, h4.read_unread, h5.read_unread, h6.read_unread, View.ld_unit_zero (S := S2048x512) zero_offsets,
    View.ld_unit_zero (S := S1024x512) zero_offsets, View.ld_unit_zero (S := S1x1024) zero_offsets, View.ld_unit_zero (S := S2048x1024) zero_offsets]

set_option maxHeartbeats 1000000 in
/-- The last case (k = 7): the output block, holding `acc`, ends at `acc` plus the slab's product plus the bias row. -/
theorem run_last (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : k0_cond3 i = 1#1)
    (x : Vec F S2048x512 .f32) (w : Vec F S1024x512 .f32) (b : Vec F S1x1024 .f32) (acc : Vec F S2048x1024 .f32) (E : Set ℕ) (K : PUnit → sProp 𝕄) :
    iprop(owns (c : Thread nD τ) a3 fullShare x ∗ owns (c : Thread nD τ) a4 fullShare w ∗ owns (c : Thread nD τ) a5 fullShare b
        ∗ owns (c : Thread nD τ) a6 fullShare acc
        ∗ (iprop(owns (c : Thread nD τ) a3 fullShare x ∗ owns (c : Thread nD τ) a4 fullShare w ∗ owns (c : Thread nD τ) a5 fullShare b
            ∗ owns (c : Thread nD τ) a6 fullShare (k0_pay3 (k0_pay2 x w acc) b)) -∗ K ⟨⟩))
      ⊢ wp frame (wpE (defs₀ (F := F)) Variants.none c none) E (cc0__matmul_bias_kernel i a3 h3 a4 h4 a5 h5 a6 h6) K := by
  simp only [cc0__matmul_bias_kernel_eq_skeleton]; unfold cc0__matmul_bias_kernel_skel
  unfold owns
  iintro ⟨⟨%f3, %hf3, H3⟩, ⟨%f4, %hf4, H4⟩, ⟨%f5, %hf5, H5⟩, ⟨%f6, %hf6, H6⟩, Hk⟩
  obtain rfl := h3.eq_unread hf3; obtain rfl := h4.eq_unread hf4; obtain rfl := h5.eq_unread hf5; obtain rfl := h6.eq_unread hf6
  sl_exec (disch := first | exact hc1 | exact hc2 | exact hc3)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  rw [read_after_whole_store _ _ zero_offsets]
  sl_unfold_words
  rw [View.readCov_unit_zero (S := S2048x1024) a6.view zero_offsets inb_S2048x1024_S2048x1024_0_0]
  simp only [View.readAt_eq_ld, h3.read_unread, h4.read_unread, h5.read_unread, h6.read_unread, View.ld_unit_zero (S := S2048x512) zero_offsets,
    View.ld_unit_zero (S := S1024x512) zero_offsets, View.ld_unit_zero (S := S1x1024) zero_offsets, View.ld_unit_zero (S := S2048x1024) zero_offsets]

end Cert.KernelIdeal.Acc

end
-- ==== Proof.KI.Data.lean ====
/-
  What the staging buffers hold from point to point. The three inputs' buffers hold their blocks and the
  body leaves them so. The output block is an accumulator over each run of eight points (one row block i,
  one column block j, k = 0 … 7): after the point with k = 0 it holds the first slab's product; after a
  later point, what it held plus that point's slab product; after the point with k = 7, that plus the
  bias row. It is written back to the array only after k = 7, so between the points of a run the body
  finds in it what it left at the point before.
-/
import proofs.«109747_j32555852104252_2_alg».proof.Proof.KI.Conds

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block after the body at position `n` of the grid, by recursion on the position. -/
def acc (c : Dev nD) : (n : ℕ) → n < cfg0.N → Vec F S2048x1024 .f32
  | 0, hn => k0_pay1 (iblk m c 0 ⟨0, hn⟩) (iblk m c 1 ⟨0, hn⟩)
  | n + 1, hn =>
    if (n + 1) % 8 = 0 then k0_pay1 (iblk m c 0 ⟨n + 1, hn⟩) (iblk m c 1 ⟨n + 1, hn⟩)
    else if (n + 1) % 8 = 7 then
      k0_pay3 (k0_pay2 (iblk m c 0 ⟨n + 1, hn⟩) (iblk m c 1 ⟨n + 1, hn⟩) (acc c n (Nat.lt_of_succ_lt hn))) (iblk m c 2 ⟨n + 1, hn⟩)
    else k0_pay2 (iblk m c 0 ⟨n + 1, hn⟩) (iblk m c 1 ⟨n + 1, hn⟩) (acc c n (Nat.lt_of_succ_lt hn))

/-- At a point with k = 0 the block is the slab's product. -/
theorem acc_first (c : Dev nD) (t : Fin cfg0.N) (h0 : t.val % 8 = 0) :
    acc m c t.val t.isLt = k0_pay1 (iblk m c 0 t) (iblk m c 1 t) := by
  obtain ⟨n, hn⟩ := t
  cases n with
  | zero => rfl
  | succ n => exact (if_pos h0).trans rfl

/-- At a point with 0 < k < 7 it is what the point before left plus the slab's product. -/
theorem acc_middle (c : Dev nD) (t : Fin cfg0.N) (h0 : t.val % 8 ≠ 0) (h7 : t.val % 8 ≠ 7) :
    acc m c t.val t.isLt = k0_pay2 (iblk m c 0 t) (iblk m c 1 t) (acc m c (t.val - 1) (Nat.lt_of_le_of_lt (Nat.sub_le _ _) t.isLt)) := by
  obtain ⟨n, hn⟩ := t
  cases n with
  | zero => exact absurd (Nat.zero_mod _) h0
  | succ n => exact (if_neg h0).trans ((if_neg h7).trans rfl)

/-- At a point with k = 7 the bias row is added on top of that. -/
theorem acc_last (c : Dev nD) (t : Fin cfg0.N) (h7 : t.val % 8 = 7) :
    acc m c t.val t.isLt = k0_pay3 (k0_pay2 (iblk m c 0 t) (iblk m c 1 t) (acc m c (t.val - 1) (Nat.lt_of_le_of_lt (Nat.sub_le _ _) t.isLt))) (iblk m c 2 t) := by
  obtain ⟨n, hn⟩ := t
  cases n with
  | zero => exfalso; dsimp only at h7; omega
  | succ n => exact (if_neg (by dsimp only at h7; omega)).trans ((if_pos h7).trans rfl)

/-- The proof data of the one pipeline on core `c`: the arrays as the region finds them; after the body each input's
    buffer at its block and the output's at the accumulator; nothing else carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = acc m c t.val t.isLt := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- At a point with k > 0 the output's buffer holds what the body left at the point before: the point is not the
    first, and the buffer is written back only after a point with k = 7, which the point before is not. -/
theorem before_3 (c : Dev nD) (t : Fin cfg0.N) (h0 : t.val % 8 ≠ 0) (d) :
    (dats m 0 c).before 3 t d = acc m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    out_live out_unclipped]
  dsimp only [dats]

end Cert.KernelIdeal.Acc

end
-- ==== Proof.KI.Body.lean ====
/-
  The body obligation of the matrix product's pipeline and its run. At a point t the three inputs' buffers hold
  their blocks; t mod 8 says which of the three cases the point is in, and in the two later cases the output's
  buffer holds what the point before left; the case's run then leaves the output's buffer at the accumulator's
  value at t. From the obligation the library's launch theorem gives the run of the whole program: it
  terminates without fault, every windowed array ends as the proof data say (the inputs unchanged, the
  output overwritten block by block at the write-backs), and the bias vector, which no window stages, is
  untouched.
-/
import proofs.«109747_j32555852104252_2_alg».proof.Proof.KI.Runs
import proofs.«109747_j32555852104252_2_alg».proof.Proof.KI.Data

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point, by the three cases of t mod 8. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 64 := lt_of_lt_of_eq t.isLt (show cfg0.N = 64 from N_0)
  by_cases h0 : t.val % 8 = 0
  · rw [acc_first m c t h0]
    iintro ⟨HΦ, Ho, ⟨%d0, H0⟩, ⟨%d1, H1⟩, ⟨%d2, H2⟩, ⟨%d3, H3⟩⟩
    iapply (run_first c (grid0.coords t) _ _ _ _ _ _ _ _ ((first_iff t).mpr h0) (fun h => (later_iff t).mp h h0)
      (fun h => by have := (last_iff t).mp h; omega) (iblk m c 0 t) (iblk m c 1 t) (iblk m c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before_3 m c t h0]
    by_cases h7 : t.val % 8 = 7
    · rw [acc_last m c t h7]
      iintro ⟨HΦ, Ho, ⟨%d0, H0⟩, ⟨%d1, H1⟩, ⟨%d2, H2⟩, ⟨%d3, H3⟩⟩
      iapply (run_last c (grid0.coords t) _ _ _ _ _ _ _ _ (fun h => h0 ((first_iff t).mp h)) ((later_iff t).mpr h0)
        ((last_iff t).mpr h7) (iblk m c 0 t) (iblk m c 1 t) (iblk m c 2 t) _ Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [acc_middle m c t h0 h7]
      iintro ⟨HΦ, Ho, ⟨%d0, H0⟩, ⟨%d1, H1⟩, ⟨%d2, H2⟩, ⟨%d3, H3⟩⟩
      iapply (run_middle c (grid0.coords t) _ _ _ _ _ _ _ _ (fun h => h0 ((first_iff t).mp h)) ((later_iff t).mpr h0)
        (fun h => h7 ((last_iff t).mp h)) (iblk m c 0 t) (iblk m c 1 t) (iblk m c 2 t) _ Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  dsimp only
  rw [show idle0 3 (grid0.coords t) = false from out_live (grid0.coords t)]
  exact sound_body m c t

set_option maxHeartbeats 2000000 in
set_option backward.isDefEq.respectTransparency.types false in
/-- The run: from any memory with zero counters every weakly fair execution of the program terminates without
    fault, with every windowed array at what the proof data give and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Acc

end
-- ==== Proof.LibBlockSum.lean ====
/-
  A finite sum over `m · n` consecutive positions, split into `m` blocks of `n`: for any function `f`
  of the natural numbers with values in a commutative additive monoid,
  `Σ_{i < m·n} f i = Σ_{t < m} Σ_{r < n} f (n·t + r)` — over `Finset.range` (`sum_range_blocks`) and
  with the outer left side and the inner right side indexed by `Fin` (`sum_fin_blocks`). A grid of
  `m` row blocks of `n` rows that accumulates one block per step ends at the sum over all `m·n` rows.
-/
import Idealize.ShloMosaic.Lib.ValueIdx

namespace AnchorGcn

/-- `Σ_{i < m·n} f i = Σ_{t < m} Σ_{r < n} f (n·t + r)`, by induction on the number of blocks. -/
theorem sum_range_blocks {M : Type*} [AddCommMonoid M] (f : ℕ → M) (n : ℕ) : ∀ m : ℕ,
    ∑ i ∈ Finset.range (m * n), f i = ∑ t ∈ Finset.range m, ∑ r ∈ Finset.range n, f (n * t + r)
  | 0 => by rw [Nat.zero_mul, Finset.sum_range_zero, Finset.sum_range_zero]
  | m + 1 => by
    rw [Nat.succ_mul, Finset.sum_range_add, sum_range_blocks f n m, Finset.sum_range_succ, Nat.mul_comm m n]

/-- The same with the positions and the rows of a block as `Fin` indices:
    `Σ_{i : Fin (m·n)} f i = Σ_{t < m} Σ_{r : Fin n} f (n·t + r)`. -/
theorem sum_fin_blocks {M : Type*} [AddCommMonoid M] (f : ℕ → M) (m n : ℕ) :
    ∑ i : Fin (m * n), f i.val = ∑ t ∈ Finset.range m, ∑ r : Fin n, f (n * t + r.val) := by
  rw [Fin.sum_univ_eq_sum_range f (m * n), sum_range_blocks f n m]
  exact Finset.sum_congr rfl fun t _ => (Fin.sum_univ_eq_sum_range (fun r => f (n * t + r)) n).symm

end AnchorGcn
-- ==== Proof.Spec.lean ====
/-
  The linear layer on the extended reals, and its arrangement by slabs of the contracted axis.

  For a 4096×4096 matrix X, a 4096×4096 matrix W and a bias row B the layer's value at (r, s) is
      G X W B (r, s) = (Σ_{k < 4096} X(r, k) · W(s, k)) + B(s).
  A kernel that walks the contracted axis in 8 slabs of 512 forms, for one (r, s), the slab sums
      slab k = Σ_{l < 512} X(r, 512·k + l) · W(s, 512·k + l),      k = 0 … 7,
  adds them one after the other, and adds B(s) last. Addition of extended reals is associative and
  commutative with unit 0 (an additive commutative monoid: a sum may be regrouped freely, infinities or
  not), so the eight slab sums add up to the whole sum and the two values agree: `G_eq_slabs`. Nothing
  here needs a finite entry.

  Matrices are read at natural-number coordinates (`at2`, zero outside the extents), so that the index
  arithmetic of blocks is arithmetic of natural numbers.
-/
import Idealize.ShloMosaic.Lib.ValueIdx
import Idealize.ShloMosaic.PureOps.Ideal
import proofs.«109747_j32555852104252_2_alg».proof.Proof.LibBlockSum

noncomputable section

namespace Cert.LinearLayer

open Idealize.ShloMosaic Idealize.ShloMosaic.ValueIdx

/-- A matrix of extended reals read at natural-number coordinates: its entry inside the extents, zero outside. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

/-- At the coordinates of an index it is the entry. -/
theorem at2_idx {n0 n1 : ℕ} (X : (⟨2, ![n0, n1]⟩ : Shape).Idx → EReal) (j : (⟨2, ![n0, n1]⟩ : Shape).Idx) :
    at2 X (j 0).val (j 1).val = X j := by
  unfold at2
  rw [dif_pos ⟨(j 0).isLt, (j 1).isLt⟩]
  exact congrArg X (eq_ix2 j).symm

/-- Whenever an index has the coordinates (a, b), the entry there is the reading at (a, b). -/
theorem at2_of_val {n0 n1 : ℕ} (X : (⟨2, ![n0, n1]⟩ : Shape).Idx → EReal) (j : (⟨2, ![n0, n1]⟩ : Shape).Idx) {a b : ℕ}
    (ha : (j 0).val = a) (hb : (j 1).val = b) : X j = at2 X a b := by
  subst ha; subst hb; exact (at2_idx X j).symm

/-- One slab's contribution to entry (r, s): the products over the 512 positions of slab k. -/
def slab (X W : (⟨2, ![4096, 4096]⟩ : Shape).Idx → EReal) (r s k : ℕ) : EReal :=
  ∑ l : Fin 512, at2 X r (512 * k + l.val) * at2 W s (512 * k + l.val)

/-- The linear layer: entry (r, s) is the inner product of row r of X with row s of W, plus B(s). -/
def G (X W : (⟨2, ![4096, 4096]⟩ : Shape).Idx → EReal) (B : (⟨2, ![1, 4096]⟩ : Shape).Idx → EReal) :
    (⟨2, ![4096, 4096]⟩ : Shape).Idx → EReal :=
  fun i => (∑ k : Fin 4096, X (ix2 (i 0) k) * W (ix2 (i 1) k)) + B (ix2 0 (i 1))

/-- A bias vector as a row [1, 4096]: entry (u, s) is the vector's entry s. -/
def biasRow (v : (⟨1, ![4096]⟩ : Shape).Idx → EReal) : (⟨2, ![1, 4096]⟩ : Shape).Idx → EReal := fun j => v (ix1 (j 1))

/-- The whole inner product is the sum of its eight slabs. -/
theorem inner_eq_slabs (X W : (⟨2, ![4096, 4096]⟩ : Shape).Idx → EReal) (i : (⟨2, ![4096, 4096]⟩ : Shape).Idx) :
    (∑ k : Fin 4096, X (ix2 (i 0) k) * W (ix2 (i 1) k)) = ∑ k ∈ Finset.range 8, slab X W (i 0).val (i 1).val k := by
  have h := AnchorGcn.sum_fin_blocks (fun n => at2 X (i 0).val n * at2 W (i 1).val n) 8 512
  refine Eq.trans ?_ h
  refine Finset.sum_congr rfl fun k _ => ?_
  rw [at2_of_val X (ix2 (i 0) k) rfl rfl, at2_of_val W (ix2 (i 1) k) rfl rfl]

/-- The layer's value at an index, slab by slab: the eight slab sums, then the bias entry. -/
theorem G_eq_slabs (X W : (⟨2, ![4096, 4096]⟩ : Shape).Idx → EReal) (B : (⟨2, ![1, 4096]⟩ : Shape).Idx → EReal)
    (i : (⟨2, ![4096, 4096]⟩ : Shape).Idx) :
    G X W B i = (∑ k ∈ Finset.range 8, slab X W (i 0).val (i 1).val k) + at2 B 0 (i 1).val := by
  unfold G
  rw [inner_eq_slabs, at2_of_val B (ix2 0 (i 1)) (a := 0) (b := (i 1).val) rfl rfl]

end Cert.LinearLayer

end
-- ==== Proof.KI.Value.lean ====
/-
  What the matrix product's kernel leaves in its result array, at the ideal instance.

  Over one run of eight points (row block i = t / 32, column block j = (t / 8) mod 4, slab k = t mod 8) the
  output block accumulates, entry by entry, the slab sums of the linear layer: after the point with slab k
  its entry (p, q) is Σ_{k' ≤ k} slab k' at row 2048·i + p of X and row 1024·j + q of W, and after slab 7
  that plus the bias entry at column 1024·j + q (`acc_apply`, by induction on the point). The block is
  written back after slab 7, where by `G_eq_slabs` it is the block of the linear layer G; the 8 blocks
  written back tile the 4096×4096 result, so the result array ends holding G (`final`, `run`).
  The bias row the kernel reads is the bias vector reshaped on the host to [1, 4096].
-/
import proofs.«109747_j32555852104252_2_alg».proof.Proof.KI.Body
import proofs.«109747_j32555852104252_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.AccValue

open Cert.KernelIdeal Cert.KernelIdeal.Gen Cert.KernelIdeal.Acc Cert.LinearLayer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The body's three values read at an index -/

theorem lhs_row (j : S2048x1024.Idx) (q : dot_S2048x512_S1024x512_S2048x1024_1_1_0_0_n_n.contr.Idx) :
    (dot_S2048x512_S1024x512_S2048x1024_1_1_0_0_n_n.lhsIdx j q 0).val = (j 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_col (j : S2048x1024.Idx) (q : dot_S2048x512_S1024x512_S2048x1024_1_1_0_0_n_n.contr.Idx) :
    (dot_S2048x512_S1024x512_S2048x1024_1_1_0_0_n_n.lhsIdx j q 1).val = (q ⟨0, by decide⟩).val :=
  dot_S2048x512_S1024x512_S2048x1024_1_1_0_0_n_n.lhsIdx_val_of_single rfl j q
theorem rhs_row (j : S2048x1024.Idx) (q : dot_S2048x512_S1024x512_S2048x1024_1_1_0_0_n_n.contr.Idx) :
    (dot_S2048x512_S1024x512_S2048x1024_1_1_0_0_n_n.rhsIdx j q 0).val = (j 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_col (j : S2048x1024.Idx) (q : dot_S2048x512_S1024x512_S2048x1024_1_1_0_0_n_n.contr.Idx) :
    (dot_S2048x512_S1024x512_S2048x1024_1_1_0_0_n_n.rhsIdx j q 1).val = (q ⟨0, by decide⟩).val :=
  dot_S2048x512_S1024x512_S2048x1024_1_1_0_0_n_n.rhsIdx_val_of_single rfl j q

/-- The slab's product x·wᵀ at (p, q): the 512 products of row p of x with row q of w, summed. -/
theorem product_apply (x : Vec Ideal S2048x512 .f32) (w : Vec Ideal S1024x512 .f32) (p : Fin 2048) (q : Fin 1024) :
    k0_pay1 (F := Ideal) x w (ix2 p q) = ∑ l : Fin 512, x (ix2 p l) * w (ix2 q l) := by
  unfold k0_pay1
  simp only [matmul]
  rw [Ideal.matmul_constant_zero_apply, ← Equiv.sum_comp (contrEquiv1 dot_S2048x512_S1024x512_S2048x1024_1_1_0_0_n_n 512 rfl rfl).symm]
  refine Finset.sum_congr rfl fun l _ => ?_
  have hk := contrEquiv1_symm_val dot_S2048x512_S1024x512_S2048x1024_1_1_0_0_n_n 512 rfl rfl l
  have el : dot_S2048x512_S1024x512_S2048x1024_1_1_0_0_n_n.lhsIdx (ix2 p q) ((contrEquiv1 dot_S2048x512_S1024x512_S2048x1024_1_1_0_0_n_n 512 rfl rfl).symm l) = ix2 p l := funext fun a => Fin.ext (by
    match a with
    | ⟨0, _⟩ => exact lhs_row _ _
    | ⟨1, _⟩ => exact (lhs_col _ _).trans hk)
  have er : dot_S2048x512_S1024x512_S2048x1024_1_1_0_0_n_n.rhsIdx (ix2 p q) ((contrEquiv1 dot_S2048x512_S1024x512_S2048x1024_1_1_0_0_n_n 512 rfl rfl).symm l) = ix2 q l := funext fun a => Fin.ext (by
    match a with
    | ⟨0, _⟩ => exact rhs_row _ _
    | ⟨1, _⟩ => exact (rhs_col _ _).trans hk)
  rw [el, er]
  rfl

/-- The middle points' value: what the block held plus the slab's product. -/
theorem added_apply (x : Vec Ideal S2048x512 .f32) (w : Vec Ideal S1024x512 .f32) (a : Vec Ideal S2048x1024 .f32) (j : S2048x1024.Idx) :
    k0_pay2 (F := Ideal) x w a j = a j + k0_pay1 (F := Ideal) x w j := by
  unfold k0_pay2
  simp only [shapeCast_self]
  rfl

/-- The last point's value: the bias row added to every row of the block. -/
theorem biased_apply (a : Vec Ideal S2048x1024 .f32) (b : Vec Ideal S1x1024 .f32) (p : Fin 2048) (q : Fin 1024) :
    k0_pay3 (F := Ideal) a b (ix2 p q) = a (ix2 p q) + b (ix2 (0 : Fin 1) q) := by
  unfold k0_pay3
  simp only [shapeCast_self]
  show a (ix2 p q) + broadcastTo S2048x1024 b broadcasts_S1x1024_S2048x1024 (ix2 p q) = _
  rw [broadcastTo_1b_ab_apply]

/-! ## The arrays as the region finds them, and the blocks read at coordinates -/

/-- The left matrix, the right matrix and the bias row as the region finds them. -/
abbrev argX (c : Dev nD) : (⟨2, ![4096, 4096]⟩ : Shape).Idx → EReal := V m c main_arg0
abbrev argW (c : Dev nD) : (⟨2, ![4096, 4096]⟩ : Shape).Idx → EReal := V m c main_arg1
abbrev argB (c : Dev nD) : (⟨2, ![1, 4096]⟩ : Shape).Idx → EReal := V m c main_v0

/-- Which block of each array a point reads or writes: decided over the 64 points. -/
theorem point_blocks : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4)

/-- The left matrix's block at point t is rows 2048·(t/32) … and columns 512·(t mod 8) … of the matrix. -/
theorem left_block (c : Dev nD) (t : Fin cfg0.N) (p : Fin 2048) (l : Fin 512) :
    (iblk m c 0 t : Vec Ideal S2048x512 .f32) (ix2 p l)
      = at2 (argX m c) (2048 * (t.val / 32) + p.val) (512 * (t.val % 8) + l.val) := by
  obtain ⟨e0, e1, -⟩ := point_blocks t
  unfold iblk
  rw [View.read_apply]
  show argX m c _ = _
  refine at2_of_val _ _ ?_ ?_
  · show win0_0.index t 0 * 2048 + 1 * p.val = _
    rw [e0]; omega
  · show win0_0.index t 1 * 512 + 1 * l.val = _
    rw [e1]; omega

/-- The right matrix's block at point t is rows 1024·((t/8) mod 4) … and columns 512·(t mod 8) … of the matrix. -/
theorem right_block (c : Dev nD) (t : Fin cfg0.N) (q : Fin 1024) (l : Fin 512) :
    (iblk m c 1 t : Vec Ideal S1024x512 .f32) (ix2 q l)
      = at2 (argW m c) (1024 * (t.val / 8 % 4) + q.val) (512 * (t.val % 8) + l.val) := by
  obtain ⟨-, -, e2, e3, -⟩ := point_blocks t
  unfold iblk
  rw [View.read_apply]
  show argW m c _ = _
  refine at2_of_val _ _ ?_ ?_
  · show win0_1.index t 0 * 1024 + 1 * q.val = _
    rw [e2]; omega
  · show win0_1.index t 1 * 512 + 1 * l.val = _
    rw [e3]; omega

/-- The bias row's block at point t is columns 1024·((t/8) mod 4) … of the row. -/
theorem bias_block (c : Dev nD) (t : Fin cfg0.N) (q : Fin 1024) :
    (iblk m c 2 t : Vec Ideal S1x1024 .f32) (ix2 (0 : Fin 1) q) = at2 (argB m c) 0 (1024 * (t.val / 8 % 4) + q.val) := by
  obtain ⟨-, -, -, -, e4, e5, -⟩ := point_blocks t
  unfold iblk
  rw [View.read_apply]
  show argB m c _ = _
  refine at2_of_val _ _ ?_ ?_
  · show win0_2.index t 0 * 1 + 1 * 0 = _
    rw [e4]
  · show win0_2.index t 1 * 1024 + 1 * q.val = _
    rw [e5]; omega

/-- The slab's product at point t, entry (p, q), is slab t mod 8 of the layer at the block's row and column. -/
theorem product_at_point (c : Dev nD) (t : Fin cfg0.N) (p : Fin 2048) (q : Fin 1024) :
    k0_pay1 (F := Ideal) (iblk m c 0 t) (iblk m c 1 t) (ix2 p q)
      = slab (argX m c) (argW m c) (2048 * (t.val / 32) + p.val) (1024 * (t.val / 8 % 4) + q.val) (t.val % 8) := by
  refine (product_apply (iblk m c 0 t) (iblk m c 1 t) p q).trans ?_
  unfold slab
  refine Finset.sum_congr rfl fun l _ => ?_
  rw [left_block m c t p l, right_block m c t q l]

/-! ## The accumulator, entry by entry -/

/-- After point t the output block's entry (p, q) is the slab sums up to slab t mod 8, and after slab 7 also the bias. -/
theorem acc_apply (c : Dev nD) (n : ℕ) : ∀ t : Fin cfg0.N, t.val = n → ∀ (p : Fin 2048) (q : Fin 1024),
    acc m c t.val t.isLt (ix2 p q)
      = (∑ k ∈ Finset.range (t.val % 8 + 1), slab (argX m c) (argW m c) (2048 * (t.val / 32) + p.val) (1024 * (t.val / 8 % 4) + q.val) k)
        + (if t.val % 8 = 7 then at2 (argB m c) 0 (1024 * (t.val / 8 % 4) + q.val) else 0) := by
  induction n using Nat.strong_induction_on with
  | _ n ih =>
    intro t ht p q
    have hN : t.val < 64 := lt_of_lt_of_eq t.isLt (show cfg0.N = 64 from N_0)
    by_cases h0 : t.val % 8 = 0
    · rw [acc_first m c t h0, product_at_point m c t p q, h0, Finset.sum_range_one, if_neg (by decide), add_zero]
    · have hlt : t.val - 1 < cfg0.N := Nat.lt_of_le_of_lt (Nat.sub_le _ _) t.isLt
      have hprev := ih (t.val - 1) (by omega) ⟨t.val - 1, hlt⟩ rfl p q
      dsimp only at hprev
      have e1 : (t.val - 1) % 8 + 1 = t.val % 8 := by omega
      have e2 : (t.val - 1) / 32 = t.val / 32 := by omega
      have e3 : (t.val - 1) / 8 % 4 = t.val / 8 % 4 := by omega
      have e4 : ¬(t.val - 1) % 8 = 7 := by omega
      rw [e1, e2, e3, if_neg e4, add_zero] at hprev
      by_cases h7 : t.val % 8 = 7
      · rw [acc_last m c t h7, biased_apply, added_apply, hprev, product_at_point m c t p q, bias_block m c t q,
          if_pos h7, Finset.sum_range_succ]
      · rw [acc_middle m c t h0 h7, added_apply, hprev, product_at_point m c t p q, if_neg h7, add_zero, Finset.sum_range_succ]

/-! ## From the blocks to the array -/

/-- What the point with slab 7 writes back is its block of the linear layer. -/
theorem flushed_eq (c : Dev nD) (t : Fin cfg0.N) (hf : (cfg0.win 3).flush t = true) :
    (dats m 0 c).flushed 3 t = ((cfg0.win 3).blk t).view.read (Elt Ideal) (G (argX m c) (argW m c) (argB m c)) := by
  have h7 : t.val % 8 = 7 := (flush0_3 t).mp hf
  obtain ⟨-, -, -, -, -, -, e6, e7⟩ := point_blocks t
  show (cfg0.win 3).cut (grid0.coords t) ((dats m 0 c).after 3 t) = _
  rw [after_3]
  funext y
  obtain ⟨p, q, rfl⟩ : ∃ (p : Fin 2048) (q : Fin 1024), y = ix2 p q := ⟨y 0, y 1, eq_ix2 y⟩
  show acc m c t.val t.isLt (ix2 p q) = G (argX m c) (argW m c) (argB m c) (((cfg0.win 3).blk t).view.emb (ix2 p q))
  rw [G_eq_slabs]
  have r0 : ((((cfg0.win 3).blk t).view.emb (ix2 p q)) 0).val = 2048 * (t.val / 32) + p.val := by
    show win0_3.index t 0 * 2048 + 1 * p.val = _
    rw [e6]; omega
  have r1 : ((((cfg0.win 3).blk t).view.emb (ix2 p q)) 1).val = 1024 * (t.val / 8 % 4) + q.val := by
    show win0_3.index t 1 * 1024 + 1 * q.val = _
    rw [e7]; omega
  rw [r0, r1]
  refine (acc_apply m c t.val t rfl p q).trans ?_
  rw [h7, if_pos rfl]

/-- Every entry of the result lies in the block some point with slab 7 writes back. -/
theorem covered (i : (⟨2, ![4096, 4096]⟩ : Shape).Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 64 := N_0
  obtain ⟨t, hv⟩ : ∃ t : Fin cfg0.N, t.val = ((i 0).val / 2048 * 4 + (i 1).val / 1024) * 8 + 7 :=
    ⟨⟨((i 0).val / 2048 * 4 + (i 1).val / 1024) * 8 + 7, by rw [hN]; omega⟩, rfl⟩
  obtain ⟨-, -, -, -, -, -, e6, e7⟩ := point_blocks t
  refine ⟨t, (flush0_3 t).mpr (by omega), ?_⟩
  show i ∈ ((View.whole main_v1).slice (win0_3.rect t)).set
  rw [View.set_slice_whole, Rect.mem_set_unit]
  intro a
  match a with
  | ⟨0, _⟩ =>
    show win0_3.index t 0 * 2048 ≤ (i 0).val ∧ (i 0).val < win0_3.index t 0 * 2048 + 2048
    rw [e6]; omega
  | ⟨1, _⟩ =>
    show win0_3.index t 1 * 1024 ≤ (i 1).val ∧ (i 1).val < win0_3.index t 1 * 1024 + 1024
    rw [e7]; omega

/-- So the result array ends holding the linear layer of the arrays the region found. -/
theorem final (c : Dev nD) : (dats m 0 c).arrAt 3 cfg0.N = G (argX m c) (argW m c) (argB m c) :=
  (dats m 0 c).arrAt_eq_of_cover 3 (G (argX m c) (argW m c) (argB m c)) (flushed_eq m c) (covered)

/-- The bias row the region finds is the bias vector as a row. -/
theorem bias_row (c : Dev nD) : argB m c = biasRow (m ((c : Thread nD τ).loc main_arg2)) := by
  have e : argB m c = shapeCast S1x4096 (m ((c : Thread nD τ).loc main_arg2) : S4096.Idx → EReal) shapeCasts_S4096_S1x4096 := by
    dsimp only [argB, V, hostOps0]; after_results; rfl
  rw [e]
  funext j
  obtain ⟨u, s, rfl⟩ : ∃ (u : Fin 1) (s : Fin 4096), j = ix2 u s := ⟨j 0, j 1, eq_ix2 j⟩
  exact shapeCast_a_1a_apply _ _ u s

/-- The run, read: the result array ends at the linear layer of the three arguments, which are unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (biasRow (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).1 3).trans ((final m c).trans (by
        rw [bias_row m c]
        show G (V m c main_arg0) (V m c main_arg1) _ = _
        rw [V_main_arg0 m c, V_main_arg1 m c])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main (F := Ideal) m ρ)

end Cert.KernelIdeal.AccValue

end
-- ==== Proof.RefSide.lean ====
/-
  The reference computes the linear layer. Its four host operations are: the product of x with the
  transpose of weight (a contraction of the two matrices' second axes), the bias vector made a row
  [1, 4096], that row repeated down the 4096 rows, and the sum of the two. Read at (r, s) this is
  (Σ_k x(r, k) · weight(s, k)) + bias(s): the function `G` with the bias row b(0, s) = bias(s).
-/
import proofs.«109747_j32555852104252_2_alg».proof.Defs
import proofs.«109747_j32555852104252_2_alg».proof.Proof.Gen.ReferenceIdeal.Read
import proofs.«109747_j32555852104252_2_alg».proof.Proof.Spec

noncomputable section

namespace Cert.ReferenceIdeal.RefValue

open Cert.ReferenceIdeal Cert.ReferenceIdeal.Gen Cert.ReferenceIdeal.Read Cert.LinearLayer
open Idealize.ShloMosaic Idealize.ShloMosaic.ValueIdx

/-- The reference's result, index by index, is the linear layer of its three arguments. -/
theorem result_eq (x0 x1 : S4096x4096.Idx → EReal) (x2 : S4096.Idx → EReal) :
    val_main_v3 (F := Ideal) x0 x1 x2 = G x0 x1 (biasRow x2) := by
  funext i
  rw [val_main_v3_apply, val_main_v0_apply, val_main_v2_apply, val_main_v1_apply]
  have el : ∀ k, lidx_main_v0 i k = ix2 (i 0) k := fun k => funext fun a => Fin.ext (by
    match a with | ⟨0, _⟩ => rfl | ⟨1, _⟩ => rfl)
  have er : ∀ k, ridx_main_v0 i k = ix2 (i 1) k := fun k => funext fun a => Fin.ext (by
    match a with | ⟨0, _⟩ => rfl | ⟨1, _⟩ => rfl)
  have eb : idx_main_v1 (idx_main_v2 i) = ix1 (i 1) := funext fun a => Fin.ext (by
    match a with | ⟨0, _⟩ => rfl)
  simp only [el, er, eb]
  rfl

end Cert.ReferenceIdeal.RefValue

end
-- ==== Proof.lean ====
/-
  The certificate of a linear layer y = x · weightᵀ + bias on 4096×4096 matrices: a kernel that tiles the
  result into 2048×1024 blocks and walks the contracted axis in eight slabs of 512, accumulating in the
  output block and adding the bias after the last slab, against one whole contraction plus a broadcast bias.

  The three frames: the kernel, at the word level and at the ideal instance, by the run of its pipeline
  over the accumulator's proof data (the body stated case by case over the slab position); the
  reference by its run. Nothing was rewritten by the idealization, so what it must preserve is trivially
  true. The two idealized programs end with the same result: both are the function
  G x weight bias (r, s) = (Σ_k x(r, k) · weight(s, k)) + bias(s) of the arguments, the kernel's by regrouping
  the sum into its eight slabs, which holds in the extended reals for any entries, finite or not.
-/
import proofs.«109747_j32555852104252_2_alg».proof.Defs
import proofs.«109747_j32555852104252_2_alg».proof.Proof.Gen.Kernel
import proofs.«109747_j32555852104252_2_alg».proof.Proof.Gen.KernelIdeal
import proofs.«109747_j32555852104252_2_alg».proof.Proof.Gen.ReferenceIdeal
import proofs.«109747_j32555852104252_2_alg».proof.Proof.Gen.Pre_finite_inputs
import proofs.«109747_j32555852104252_2_alg».proof.Proof.K.Body
import proofs.«109747_j32555852104252_2_alg».proof.Proof.KI.Value
import proofs.«109747_j32555852104252_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Acc.frame (F := Bits) m ρ

theorem frame_kernelIdeal : Cert.frame_KernelIdeal := fun m ρ _ => Cert.KernelIdeal.Acc.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the linear layer of the arguments; the arguments agree. -/
theorem algebraic : Cert.algebraic_KernelIdeal_ReferenceIdeal := by
  intro m ρ m' ρ' _ hagree
  refine ⟨fun c => Cert.LinearLayer.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.LinearLayer.biasRow (m ((c.tc : Thread Cert.KernelIdeal.nD Cert.KernelIdeal.τ).loc Cert.KernelIdeal.main_arg2))),
    Cert.KernelIdeal.AccValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
